-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S128x4 .f32) (main_arg6 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x4 .f32 := Host.absf main_arg5
  let main_cst_6 : FVec F S_ .f32 := constant S_ .f32 0x7F800000#32
  let main_v20 : FVec F S128x4 .f32 := broadcastInDim S128x4 ![] bcast_S_S128x4 main_cst_6
  let main_v21 : IVec S128x4 1 := cmpf .olt main_v19 main_v20
  let main_c_7 : IVec S_ 1 := constantI S_ 1 1#1
  let main_v22 : IVec S_ 1 := (fun x v => Host.reduce IntOp.andi x v reducesTo_S128x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x4 .f32) (main_arg6 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x4 : Shape := ⟨2, ![50000, 4]⟩
abbrev S5000x4 : Shape := ⟨2, ![5000, 4]⟩
abbrev S850000x4 : Shape := ⟨2, ![850000, 4]⟩
abbrev S1x4 : Shape := ⟨2, ![1, 4]⟩
abbrev S5000 : Shape := ⟨1, ![5000]⟩
abbrev S5000x1 : Shape := ⟨2, ![5000, 1]⟩

abbrev nBuf : Space → Nat
  | .hbm => 85
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x4, .f32⟩
  | .hbm, ⟨6, _⟩ => ⟨S4, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S50000x128, .f32⟩
  | .hbm, ⟨67, _⟩ => ⟨S50000x4, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x4, .f32⟩
  | .hbm, ⟨77, _⟩ => ⟨S850000x1, .f32⟩
  | .hbm, ⟨78, _⟩ => ⟨S850000x4, .f32⟩
  | .hbm, ⟨79, _⟩ => ⟨S850000x4, .f32⟩
  | .hbm, ⟨80, _⟩ => ⟨S_, .f32⟩
  | .hbm, ⟨81, _⟩ => ⟨S50000x4, .f32⟩
  | .hbm, ⟨82, _⟩ => ⟨S850000x1, .i32⟩
  | .hbm, ⟨83, _⟩ => ⟨S50000x4, .f32⟩
  | .hbm, ⟨84, _⟩ => ⟨S50000x4, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x4, .f32⟩
  | .local _ .vmem, ⟨13, _⟩ => ⟨S5000x4, .f32⟩
  | .local _ .vmem, ⟨14, _⟩ => ⟨S5000x4, .f32⟩
  | .local _ .vmem, ⟨15, _⟩ => ⟨S5000x4, .f32⟩
  | .local _ .vmem, ⟨16, _⟩ => ⟨S5000x4, .f32⟩
  | .local _ .vmem, ⟨17, _⟩ => ⟨S4, .f32⟩
  | .local _ .vmem, ⟨18, _⟩ => ⟨S5000x4, .f32⟩
  | .local _ .vmem, ⟨19, _⟩ => ⟨S5000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x4_S128x4_0_0 : ∀ a, (![0, 0] : Fin 2 → Nat) a + S128x4.size a ≤ S128x4.size a
  h_S128x4 : 0 < S128x4.numel
  inb_S5000x4_S5000x4_0_0 : ∀ a, (![0, 0] : Fin 2 → Nat) a + S5000x4.size a ≤ S5000x4.size a
  h_S5000x4 : 0 < S5000x4.numel
  bcast_S850000x1_S850000x4_0_1 : S850000x1.BroadcastsInDim S850000x4 (![0, 1] : Fin 2 → Fin S850000x4.rank)
  bcast_S_S50000x4 : S_.BroadcastsInDim S50000x4 (![] : Fin 0 → Fin S50000x4.rank)
  shapeCasts_S5000x4_S5000x4 : S5000x4.ShapeCasts S5000x4
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  reduces_S5000x4_S5000 : S5000x4.Reduces [1] S5000
  shapeCasts_S5000_S5000x1 : S5000.ShapeCasts S5000x1
  broadcasts_S5000x1_S5000x4 : S5000x1.Broadcasts S5000x4
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x4_S5000x4_1_0_0_1_n_n_wf : DotDims.WF S5000x128 S128x4 S5000x4 [1] [0] [0] [1] [] []
  gather_S50000x4_S850000x1_S850000x4_1_0_n_n_0_1_14_wf : GatherDims.WF S50000x4 S850000x1 S850000x4 [1] [0] [] [0] [] 1 ![1, 4]
  scatter_S50000x4_S850000x1_S850000x4_1_0_0_1_wf : ScatterDims.WF S50000x4 S850000x1 S850000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4.size a ≤ S128x4.size a
  hwx2_1 : ∀ i : grid2.Coords, EltTy.bits .f32 = 32 ∨ (Rect.block (s := S128x4) S128x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x4.size a ≤ S50000x4.size a
  hwx2_2 : ∀ i : grid2.Coords, EltTy.bits .f32 = 32 ∨ (Rect.block (s := S50000x4) S5000x4.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x4.size a ≤ S50000x4.size a
  hwx3_0 : ∀ i : grid3.Coords, EltTy.bits .f32 = 32 ∨ (Rect.block (s := S50000x4) S5000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4.size a ≤ S4.size a
  hwx3_1 : ∀ i : grid3.Coords, EltTy.bits .f32 = 32 ∨ (Rect.block (s := S4) S4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x4.size a ≤ S50000x4.size a
  hwx3_2 : ∀ i : grid3.Coords, EltTy.bits .f32 = 32 ∨ (Rect.block (s := S50000x4) S5000x4.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def gather_S50000x4_S850000x1_S850000x4_1_0_n_n_0_1_14 : GatherDims S50000x4 S850000x1 S850000x4 where
  offsetDims := [1]
  collapsedSliceDims := [0]
  operandBatchingDims := []
  startIndicesBatchingDims := []
  startIndexMap := [0]
  indexVectorDim := 1
  sliceSizes := ![1, 4]
  wf := gather_S50000x4_S850000x1_S850000x4_1_0_n_n_0_1_14_wf
def scatter_S50000x4_S850000x1_S850000x4_1_0_0_1 : ScatterDims S50000x4 S850000x1 S850000x4 where
  updateWindowDims := [1]
  insertedWindowDims := [0]
  scatterDimsToOperandDims := [0]
  indexVectorDim := 1
  wf := scatter_S50000x4_S850000x1_S850000x4_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x4.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x4 : Shape := ⟨2, ![50000, 4]⟩
abbrev S850000x4 : Shape := ⟨2, ![850000, 4]⟩
abbrev S1x4 : Shape := ⟨2, ![1, 4]⟩
abbrev S50000x1 : Shape := ⟨2, ![50000, 1]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x4, .f32⟩
  | 6 => ⟨S4, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S50000, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S50000, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x4, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x4, .f32⟩
  | 120 => ⟨S850000x1, .f32⟩
  | 121 => ⟨S850000x4, .f32⟩
  | 122 => ⟨S850000x4, .f32⟩
  | 123 => ⟨S_, .f32⟩
  | 124 => ⟨S50000x4, .f32⟩
  | 125 => ⟨S850000x1, .i32⟩
  | 126 => ⟨S50000x4, .f32⟩
  | 127 => ⟨S1x4, .f32⟩
  | _ => ⟨S50000x128, .f32⟩

abbrev hbmTy0_1 (i : Nat) : BufTy := match i % 128 with
  | 0 => ⟨S50000x4, .f32⟩
  | 1 => ⟨S50000x4, .f32⟩
  | 2 => ⟨S_, .f32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x4, .f32⟩
  | 9 => ⟨S50000x4, .f32⟩
  | 10 => ⟨S50000x4, .f32⟩
  | 11 => ⟨S_, .f32⟩
  | 12 => ⟨S50000, .f32⟩
  | 13 => ⟨S50000x1, .f32⟩
  | 14 => ⟨S50000x4, .f32⟩
  | 15 => ⟨S50000x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x4_0_1 : S850000x1.BroadcastsInDim S850000x4 (![0, 1] : Fin 2 → Fin S850000x4.rank)
  bcast_S_S50000x4 : S_.BroadcastsInDim S50000x4 (![] : Fin 0 → Fin S50000x4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  reducesTo_S50000x4_S50000_d1 : S50000x4.ReducesTo [1] S50000
  h_S_ : 0 < S_.numel
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x4_S50000x4_1_0_0_1_n_n_wf : DotDims.WF S50000x128 S128x4 S50000x4 [1] [0] [0] [1] [] []
  gather_S50000x4_S850000x1_S850000x4_1_0_n_n_0_1_14_wf : GatherDims.WF S50000x4 S850000x1 S850000x4 [1] [0] [] [0] [] 1 ![1, 4]
  scatter_S50000x4_S850000x1_S850000x4_1_0_0_1_wf : ScatterDims.WF S50000x4 S850000x1 S850000x4 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf
def gather_S50000x4_S850000x1_S850000x4_1_0_n_n_0_1_14 : GatherDims S50000x4 S850000x1 S850000x4 where
  offsetDims := [1]
  collapsedSliceDims := [0]
  operandBatchingDims := []
  startIndicesBatchingDims := []
  startIndexMap := [0]
  indexVectorDim := 1
  sliceSizes := ![1, 4]
  wf := gather_S50000x4_S850000x1_S850000x4_1_0_n_n_0_1_14_wf
def scatter_S50000x4_S850000x1_S850000x4_1_0_0_1 : ScatterDims S50000x4 S850000x1 S850000x4 where
  updateWindowDims := [1]
  insertedWindowDims := [0]
  scatterDimsToOperandDims := [0]
  indexVectorDim := 1
  wf := scatter_S50000x4_S850000x1_S850000x4_1_0_0_1_wf

class Facts : Prop extends Facts₀ where

variable [Facts]
-- ==== Proof.RunValue.lean ====
/-
  The run of the whole program with its RESULT named: every weakly fair execution of the program terminates,
  nothing faulting, with the result array at what the last region's write-backs leave in it (the contents of the
  last segment boundary at the result's buffer) and the argument arrays as launched. The same launch over the
  same segments as the frame certificate; only the final read-out also reads the result's buffer.
-/
import proofs.«179261_j3504693313899_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run: the result array ends at the last boundary's contents of its buffer, the arguments as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.GcnSpec.lean ====
/-
  The four dense pieces of a two-layer graph convolution, each as ONE function of whole arrays over the extended
  reals, with the number of rows a parameter: a row block of the result is the same function of the row block of
  the first operand.

  * `mm A B`: the matrix product, element (r, c) the sum over k of A (r, k) · B (k, c);
  * `biasRelu h b`: max (h (r, c) + b c, 0);
  * `biasSoftmax o b`: along each row of x (r, c) = o (r, c) + b c, e^{x − max of the row} divided by the sum over the
    row of e^{x − max of the row}; the maximum is the fold of max from −∞ over the row's entries.
  Every element of a result depends on ONE row of the first operand (`mm_row`, `biasSoftmax_row`).
-/
import Idealize.ShloMosaic.Lib.ValueIdx
import Idealize.ShloMosaic.PureOps.Ideal.Laws

noncomputable section

open scoped BigOperators

namespace Gcn

open Idealize.ShloMosaic Idealize.ShloMosaic.ValueIdx

variable {M K N : Nat}

/-- The matrix product: element (r, c) is the sum over k of A (r, k) · B (k, c). -/
def mm (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Bias, then the positive part: max (h (r, c) + b c, 0). -/
def biasRelu (h : (⟨2, ![M, N]⟩ : Shape).Idx → EReal) (b : (⟨1, ![N]⟩ : Shape).Idx → EReal) :
    (⟨2, ![M, N]⟩ : Shape).Idx → EReal :=
  fun j => max (h j + b (ix1 (j 1))) 0

/-- The maximum of a row: the fold of max from −∞. -/
def rowMax (x : Fin N → EReal) : EReal := (Finset.univ : Finset (Fin N)).fold max ⊥ x

/-- The softmax of a row at an entry: e^{x c − max} over the sum of e^{x k − max}. -/
def smRow (x : Fin N → EReal) (c : Fin N) : EReal :=
  Ideal.div (Ideal.exp (x c - rowMax x)) (∑ k : Fin N, Ideal.exp (x k - rowMax x))

/-- Bias, then the softmax along each row. -/
def biasSoftmax (o : (⟨2, ![M, N]⟩ : Shape).Idx → EReal) (b : (⟨1, ![N]⟩ : Shape).Idx → EReal) :
    (⟨2, ![M, N]⟩ : Shape).Idx → EReal :=
  fun j => smRow (fun k => o (ix2 (j 0) k) + b (ix1 k)) (j 1)

/-- The product at (r, c) reads row r of the left operand only. -/
theorem mm_apply (A : (⟨2, ![M, K]⟩ : Shape).Idx → EReal) (B : (⟨2, ![K, N]⟩ : Shape).Idx → EReal)
    (r : Fin M) (c : Fin N) : mm A B (ix2 r c) = ∑ k : Fin K, A (ix2 r k) * B (ix2 k c) := rfl

theorem biasRelu_apply (h : (⟨2, ![M, N]⟩ : Shape).Idx → EReal) (b : (⟨1, ![N]⟩ : Shape).Idx → EReal)
    (r : Fin M) (c : Fin N) : biasRelu h b (ix2 r c) = max (h (ix2 r c) + b (ix1 c)) 0 := rfl

theorem biasSoftmax_apply (o : (⟨2, ![M, N]⟩ : Shape).Idx → EReal) (b : (⟨1, ![N]⟩ : Shape).Idx → EReal)
    (r : Fin M) (c : Fin N) : biasSoftmax o b (ix2 r c) = smRow (fun k => o (ix2 r k) + b (ix1 k)) c := rfl

end Gcn

end
-- ==== Proof.LibPlainDot.lean ====
/-
  A matrix product "rows by columns" read at an index, at the ideal instance.

  For dimension numbers that contract the left operand's second axis with the right operand's first one and
  have no batch axis — an `M×K` matrix times a `K×N` matrix —, the element `(r, c)` of the product is
  `∑ k : Fin K, A (r, k) * B (k, c)`:
  * for the host's `dot_general` (no accumulator), and
  * for the matrix unit's `matmul` into the all-zero accumulator.
  Both are the same sum over the ONE coordinate `k` of the contracted axis, so a product computed in row
  blocks and a product computed whole agree element by element. General in `M`, `K`, `N`, the dimension-number
  record (any record whose six lists are the plain ones) and the operands' float formats.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract the left operand's axis 1 with the right operand's
    axis 0; the result's axes are the left operand's axis 0, then the right operand's axis 1; no batch axis. -/
structure Plain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The left operand's row coordinate is the result's row coordinate. -/
theorem lhs_row (d : DotDims ⟨2, ![M, K]⟩ ⟨2, ![K, N]⟩ ⟨2, ![M, N]⟩) (P : Plain d)
    (j : (⟨2, ![M, N]⟩ : Shape).Idx) (q : d.contr.Idx) : (d.lhsIdx j q 0).val = (j 0).val := by
  unfold DotDims.lhsIdx
  rw [dif_neg (show ¬ (0 : Fin (⟨2, ![M, K]⟩ : Shape).rank) ∈ d.lhsBatch by rw [P.lb]; simp),
    dif_pos (show (0 : Fin (⟨2, ![M, K]⟩ : Shape).rank) ∈ d.lhsNonContracting by rw [P.ln]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln])

/-- The right operand's column coordinate is the result's column coordinate. -/
theorem rhs_col (d : DotDims ⟨2, ![M, K]⟩ ⟨2, ![K, N]⟩ ⟨2, ![M, N]⟩) (P : Plain d)
    (j : (⟨2, ![M, N]⟩ : Shape).Idx) (q : d.contr.Idx) : (d.rhsIdx j q 1).val = (j 1).val := by
  unfold DotDims.rhsIdx
  rw [dif_neg (show ¬ (1 : Fin (⟨2, ![K, N]⟩ : Shape).rank) ∈ d.rhsBatch by rw [P.rb]; simp),
    dif_pos (show (1 : Fin (⟨2, ![K, N]⟩ : Shape).rank) ∈ d.rhsNonContracting by rw [P.rn]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln, P.rn])

/-- The left operand is read at (row of the result, the contracted coordinate). -/
theorem lhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.lhsIdx j ((contrEquiv1 d K hr hs).symm k) = ix2 (j 0) k := by
  have hk := contrEquiv1_symm_val d K hr hs k
  funext a
  apply Fin.ext
  match a with
  | ⟨0, _⟩ => exact lhs_row d P j _
  | ⟨1, _⟩ => exact (d.lhsIdx_val_of_single P.lc j _).trans hk

/-- The right operand is read at (the contracted coordinate, column of the result). -/
theorem rhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.rhsIdx j ((contrEquiv1 d K hr hs).symm k) = ix2 k (j 1) := by
  have hk := contrEquiv1_symm_val d K hr hs k
  funext a
  apply Fin.ext
  match a with
  | ⟨0, _⟩ => exact (d.rhsIdx_val_of_single P.rc j _).trans hk
  | ⟨1, _⟩ => exact rhs_col d P j _

/-- The sum over the contraction index, re-indexed by the contracted axis's one coordinate. -/
theorem sum_contr (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (A : FVec Ideal ⟨2, ![M, K]⟩ φ₁) (B : FVec Ideal ⟨2, ![K, N]⟩ φ₂)
    (j : (⟨2, ![M, N]⟩ : Shape).Idx) :
    (∑ q : d.contr.Idx, A (d.lhsIdx j q) * B (d.rhsIdx j q)) = ∑ k : Fin K, A (ix2 (j 0) k) * B (ix2 k (j 1)) := by
  rw [← Equiv.sum_comp (contrEquiv1 d K hr hs).symm]
  refine Finset.sum_congr rfl fun k _ => ?_
  rw [lhsIdx_eq d P hr hs j k, rhsIdx_eq d P hr hs j k]
  rfl

/-- The host's product at an index: the sum over the contracted coordinate. -/
theorem dotGeneral_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral d prec sched A B j = ∑ k : Fin K, A (ix2 (j 0) k) * B (ix2 k (j 1)) := by
  rw [Ideal.dotGeneral_apply]
  exact sum_contr d P hr hs A B j

/-- The matrix unit's product into the zero accumulator at an index: the same sum. -/
theorem matmul_zero_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision)
    (A : FVec Ideal ⟨2, ![M, K]⟩ φ₁) (B : FVec Ideal ⟨2, ![K, N]⟩ φ₂) (j : (⟨2, ![M, N]⟩ : Shape).Idx) :
    FloatOps.matmul d prec A B (constant ⟨2, ![M, N]⟩ .f32 0x00000000#32) j
      = ∑ k : Fin K, A (ix2 (j 0) k) * B (ix2 k (j 1)) := by
  rw [Ideal.matmul_constant_zero_apply]
  exact sum_contr d P hr hs A B j

end PlainDot

end
-- ==== Proof.Region0.lean ====
/-
  Region 0 of the program: a matrix product computed in ten row blocks of 5000 rows. At each grid point the
  body multiplies the point's block of rows of the left operand by the whole right operand (the narrowing of both
  to bf16 is the identity on extended reals; the accumulator starts at zero), so the block it writes back is the
  same rows of the whole product: element (r, c) of either is the sum over k of left (r, k) · right (k, c).
  The ten blocks tile the result array, which therefore ends holding the whole product of the arrays the
  region found.
-/
import proofs.«179261_j3504693313899_2_alg».proof.Proof.Gen.KernelIdeal.Frame
import proofs.«179261_j3504693313899_2_alg».proof.Proof.GcnSpec
import proofs.«179261_j3504693313899_2_alg».proof.Proof.LibPlainDot
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

-- the buffer contents when the region is entered: a parameter
variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the product of the two loaded blocks. -/
theorem pay_eq (x0 : Vec Ideal S5000x128 .f32) (x1 : Vec Ideal S128x128 .f32) :
    k0_pay1 (F := Ideal) x0 x1 = Gcn.mm x0 x1 := by
  funext j
  unfold k0_pay1
  exact PlainDot.matmul_zero_apply dot_S5000x128_S128x128_S5000x128_1_0_0_1_n_n ⟨rfl, rfl, rfl, rfl, rfl, rfl⟩ rfl rfl none _ _ j

/-- The printed index maps over the grid: the left operand's and the result's blocks are row block `t`, the right
    operand's is the whole array. -/
theorem idx_facts : ∀ t : Fin cfg0.N, win0_0.index t (0 : Fin 2) = t.val
    ∧ win0_0.index t (1 : Fin 2) = 0
    ∧ (win0_1.index t (0 : Fin 2) = 0 ∧ win0_1.index t (1 : Fin 2) = 0)
    ∧ win0_2.index t (0 : Fin 2) = t.val
    ∧ win0_2.index t (1 : Fin 2) = 0 :=
  (by decide +kernel : ∀ t : Fin grid0.N, _)

/-- What point `t` writes back is block `t` of the whole product of the arrays the region found. -/
theorem flushed_eq (c : Dev nD) (t : Fin cfg0.N) :
    (dat0 V c).flushed 2 t = ((cfg0.win 2).blk t).view.read (Elt Ideal)
      (Gcn.mm (V c main_arg0 : S50000x128.Idx → EReal) (V c main_arg3 : S128x128.Idx → EReal)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  rw [pay_eq]
  obtain ⟨e0, e1, ⟨e2a, e2b⟩, e3, e4⟩ := idx_facts t
  funext j
  show Gcn.mm (iblk0 V c 0 t) (iblk0 V c 1 t) ((win0 2).xinj (grid0.coords t) j)
    = Gcn.mm (V c main_arg0 : S50000x128.Idx → EReal) (V c main_arg3 : S128x128.Idx → EReal) (((cfg0.win 2).blk t).view.emb j)
  unfold Gcn.mm
  refine Finset.sum_congr rfl fun k _ => ?_
  refine congrArg₂ (· * ·) ?_ ?_
  · show (V c main_arg0 : S50000x128.Idx → EReal) (((cfg0.win 0).blk t).view.emb _) = (V c main_arg0 : S50000x128.Idx → EReal) _
    refine congrArg (V c main_arg0 : S50000x128.Idx → EReal) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show (V c main_arg3 : S128x128.Idx → EReal) (((cfg0.win 1).blk t).view.emb _) = (V c main_arg3 : S128x128.Idx → EReal) _
    refine congrArg (V c main_arg3 : S128x128.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the result is in the block of point `r / 5000`: the ten row blocks cover the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e3]
    show (i 0).val / 5000 * 5000 ≤ (i 0).val ∧ (i 0).val < (i 0).val / 5000 * 5000 + 5000
    omega
  | ⟨1, _⟩ =>
    show win0_2.index t (1 : Fin 2) * 128 ≤ (i 1).val ∧ (i 1).val < win0_2.index t (1 : Fin 2) * 128 + 128
    omega

/-- After the region its result array holds `Gcn.mm` of the two operand arrays as the region found them. -/
theorem final (c : Dev nD) : (dat0 V c).arrAt 2 cfg0.N
    = Gcn.mm (V c main_arg0 : S50000x128.Idx → EReal) (V c main_arg3 : S128x128.Idx → EReal) :=
  (dat0 V c).arrAt_eq_of_cover 2 _ (fun t _ => flushed_eq V c t) cover

end Cert.KernelIdeal.Region0

end
-- ==== Proof.Region1.lean ====
/-
  Region 1 of the program: bias, then the positive part, in ten row blocks of 5000 rows. At each grid point the
  body adds the bias vector (one row, broadcast down the block) to the point's block of rows and takes the maximum
  with zero, so the block it writes back is the same rows of max (h (r, c) + b c, 0) of the whole array. The ten
  blocks tile the result array.
-/
import Idealize.ShloMosaic.Lib.ValueLayout
import proofs.«179261_j3504693313899_2_alg».proof.Proof.Gen.KernelIdeal.Frame
import proofs.«179261_j3504693313899_2_alg».proof.Proof.GcnSpec
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

-- the buffer contents when the region is entered: a parameter
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value: max (block (p, q) + bias q, 0). -/
theorem pay_eq (x0 : Vec Ideal S5000x128 .f32) (x1 : Vec Ideal S128 .f32) :
    k1_pay1 (F := Ideal) x0 x1 = Gcn.biasRelu x0 x1 := by
  funext j
  obtain ⟨p, q, rfl⟩ : ∃ (p : Fin 5000) (q : Fin 128), j = ix2 p q := ⟨j 0, j 1, eq_ix2 j⟩
  rw [Gcn.biasRelu_apply]
  unfold k1_pay1
  rw [shapeCast_self]
  show max (x0 (ix2 p q) + broadcastTo S5000x128 (shapeCast S1x128 x1 shapeCasts_S128_S1x128) broadcasts_S1x128_S5000x128 (ix2 p q))
      (Ideal.ofBits .f32 0x00000000#32) = _
  rw [broadcastTo_1b_ab_apply, shapeCast_a_1a_apply, Ideal.ofBits_zero_f32]

/-- The printed index maps over the grid: the input's and the result's blocks are row block `t`, the bias's is the
    whole vector. -/
theorem idx_facts : ∀ t : Fin cfg1.N, win1_0.index t (0 : Fin 2) = t.val
    ∧ win1_0.index t (1 : Fin 2) = 0
    ∧ win1_1.index t (0 : Fin 1) = 0
    ∧ win1_2.index t (0 : Fin 2) = t.val
    ∧ win1_2.index t (1 : Fin 2) = 0 :=
  (by decide +kernel : ∀ t : Fin grid1.N, _)

/-- What point `t` writes back is block `t` of the whole biased positive part of the arrays the region found. -/
theorem flushed_eq (c : Dev nD) (t : Fin cfg1.N) :
    (dat1 V c).flushed 2 t = ((cfg1.win 2).blk t).view.read (Elt Ideal)
      (Gcn.biasRelu (V c main_v45 : S50000x128.Idx → EReal) (V c main_arg4 : S128.Idx → EReal)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  rw [pay_eq]
  obtain ⟨e0, e1, e2, e3, e4⟩ := idx_facts t
  funext j
  show Gcn.biasRelu (iblk1 V c 0 t) (iblk1 V c 1 t) ((win1 2).xinj (grid1.coords t) j)
    = Gcn.biasRelu (V c main_v45 : S50000x128.Idx → EReal) (V c main_arg4 : S128.Idx → EReal) (((cfg1.win 2).blk t).view.emb j)
  unfold Gcn.biasRelu
  refine congrArg (fun z : EReal => max z 0) (congrArg₂ (· + ·) ?_ ?_)
  · show (V c main_v45 : S50000x128.Idx → EReal) (((cfg1.win 0).blk t).view.emb _) = (V c main_v45 : S50000x128.Idx → EReal) _
    refine congrArg (V c main_v45 : S50000x128.Idx → EReal) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show (V c main_arg4 : S128.Idx → EReal) (((cfg1.win 1).blk t).view.emb _) = (V c main_arg4 : S128.Idx → EReal) _
    refine congrArg (V c main_arg4 : S128.Idx → EReal) (funext fun a => Fin.ext ?_)
    match a with
    | ⟨0, _⟩ => show win1_1.index t (0 : Fin 1) * 128 + 1 * (j 1).val = win1_2.index t (1 : Fin 2) * 128 + 1 * (j 1).val; omega

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Row `r` of the result is in the block of point `r / 5000`: the ten row blocks cover the array. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    rw [e3]
    show (i 0).val / 5000 * 5000 ≤ (i 0).val ∧ (i 0).val < (i 0).val / 5000 * 5000 + 5000
    omega
  | ⟨1, _⟩ =>
    show win1_2.index t (1 : Fin 2) * 128 ≤ (i 1).val ∧ (i 1).val < win1_2.index t (1 : Fin 2) * 128 + 128
    omega

/-- After the region its result array holds `Gcn.biasRelu` of the two operand arrays as the region found them. -/
theorem final (c : Dev nD) : (dat1 V c).arrAt 2 cfg1.N
    = Gcn.biasRelu (V c main_v45 : S50000x128.Idx → EReal) (V c main_arg4 : S128.Idx → EReal) :=
  (dat1 V c).arrAt_eq_of_cover 2 _ (fun t _ => flushed_eq V c t) cover

end Cert.KernelIdeal.Region1

end
-- ==== Proof.Region2.lean ====
/-
  Region 2 of the program: a matrix product computed in ten row blocks of 5000 rows. At each grid point the
  body multiplies the point's block of rows of the left operand by the whole right operand (the narrowing of both
  to bf16 is the identity on extended reals; the accumulator starts at zero), so the block it writes back is the
  same rows of the whole product: element (r, c) of either is the sum over k of left (r, k) · right (k, c).
  The ten blocks tile the result array, which therefore ends holding the whole product of the arrays the
  region found.
-/
import proofs.«179261_j3504693313899_2_alg».proof.Proof.Gen.KernelIdeal.Frame
import proofs.«179261_j3504693313899_2_alg».proof.Proof.GcnSpec
import proofs.«179261_j3504693313899_2_alg».proof.Proof.LibPlainDot
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

-- the buffer contents when the region is entered: a parameter
variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the product of the two loaded blocks. -/
theorem pay_eq (x0 : Vec Ideal S5000x128 .f32) (x1 : Vec Ideal S128x4 .f32) :
    k2_pay1 (F := Ideal) x0 x1 = Gcn.mm x0 x1 := by
  funext j
  unfold k2_pay1
  rw [shapeCast_self]
  exact PlainDot.matmul_zero_apply dot_S5000x128_S128x4_S5000x4_1_0_0_1_n_n ⟨rfl, rfl, rfl, rfl, rfl, rfl⟩ rfl rfl none _ _ j

/-- The printed index maps over the grid: the left operand's and the result's blocks are row block `t`, the right
    operand's is the whole array. -/
theorem idx_facts : ∀ t : Fin cfg2.N, win2_0.index t (0 : Fin 2) = t.val
    ∧ win2_0.index t (1 : Fin 2) = 0
    ∧ (win2_1.index t (0 : Fin 2) = 0 ∧ win2_1.index t (1 : Fin 2) = 0)
    ∧ win2_2.index t (0 : Fin 2) = t.val
    ∧ win2_2.index t (1 : Fin 2) = 0 :=
  (by decide +kernel : ∀ t : Fin grid2.N, _)

/-- What point `t` writes back is block `t` of the whole product of the arrays the region found. -/
theorem flushed_eq (c : Dev nD) (t : Fin cfg2.N) :
    (dat2 V c).flushed 2 t = ((cfg2.win 2).blk t).view.read (Elt Ideal)
      (Gcn.mm (V c main_v46 : S50000x128.Idx → EReal) (V c main_arg5 : S128x4.Idx → EReal)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x4) hz2]
  rw [pay_eq]
  obtain ⟨e0, e1, ⟨e2a, e2b⟩, e3, e4⟩ := idx_facts t
  funext j
  show Gcn.mm (iblk2 V c 0 t) (iblk2 V c 1 t) ((win2 2).xinj (grid2.coords t) j)
    = Gcn.mm (V c main_v46 : S50000x128.Idx → EReal) (V c main_arg5 : S128x4.Idx → EReal) (((cfg2.win 2).blk t).view.emb j)
  unfold Gcn.mm
  refine Finset.sum_congr rfl fun k _ => ?_
  refine congrArg₂ (· * ·) ?_ ?_
  · show (V c main_v46 : S50000x128.Idx → EReal) (((cfg2.win 0).blk t).view.emb _) = (V c main_v46 : S50000x128.Idx → EReal) _
    refine congrArg (V c main_v46 : S50000x128.Idx → EReal) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show (V c main_arg5 : S128x4.Idx → EReal) (((cfg2.win 1).blk t).view.emb _) = (V c main_arg5 : S128x4.Idx → EReal) _
    refine congrArg (V c main_arg5 : S128x4.Idx → EReal) (funext fun a => Fin.ext ?_)
    match a with
    | ⟨0, _⟩ => show win2_1.index t (0 : Fin 2) * 128 + 1 * k.val = k.val; omega
    | ⟨1, _⟩ => show win2_1.index t (1 : Fin 2) * 4 + 1 * (j 1).val = win2_2.index t (1 : Fin 2) * 4 + 1 * (j 1).val; omega

/-- An index of the result array is in point `t`'s block iff each coordinate is in the block's range on its axis. -/
theorem mem_blk (t : Fin cfg2.N) (i : S50000x4.Idx) :
    i ∈ ((cfg2.win 2).blk t).view.set ↔ ∀ a : Fin 2, win2_2.index t a * S5000x4.size a ≤ (i a).val ∧ (i a).val < win2_2.index t a * S5000x4.size a + S5000x4.size a := by
  show i ∈ ((View.whole main_v47).slice (win2_2.rect t)).set ↔ _
  rw [View.set_slice_whole, Rect.mem_set_unit]
  exact Iff.rfl

/-- Row `r` of the result is in the block of point `r / 5000`: the ten row blocks cover the array. -/
theorem cover (i : S50000x4.Idx) : ∃ t : Fin cfg2.N, (cfg2.win 2).flush t = true ∧ i ∈ ((cfg2.win 2).blk t).view.set := by
  have hi0 : (i 0).val < 50000 := (i 0).isLt
  have hi1 : (i 1).val < 4 := (i 1).isLt
  have hN : cfg2.N = 10 := N_2
  let t : Fin cfg2.N := ⟨(i 0).val / 5000, by rw [hN]; omega⟩
  obtain ⟨e0, e1, e2, e3, e4⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e3]
    show (i 0).val / 5000 * 5000 ≤ (i 0).val ∧ (i 0).val < (i 0).val / 5000 * 5000 + 5000
    omega
  | ⟨1, _⟩ =>
    show win2_2.index t (1 : Fin 2) * 4 ≤ (i 1).val ∧ (i 1).val < win2_2.index t (1 : Fin 2) * 4 + 4
    omega

/-- After the region its result array holds `Gcn.mm` of the two operand arrays as the region found them. -/
theorem final (c : Dev nD) : (dat2 V c).arrAt 2 cfg2.N
    = Gcn.mm (V c main_v46 : S50000x128.Idx → EReal) (V c main_arg5 : S128x4.Idx → EReal) :=
  (dat2 V c).arrAt_eq_of_cover 2 _ (fun t _ => flushed_eq V c t) cover

end Cert.KernelIdeal.Region2

end
-- ==== Proof.LibRowLayout.lean ====
/-
  Layout operations of matrices read at an index `(p, k)`, in the forms a row-blocked matrix kernel needs: a column
  `[a, 1]` broadcast along its rows to `[a, b]` by a vector broadcast, a vector `[a]` cast to the column `[a, 1]`,
  and two matrices with the same rows set side by side along the column axis, read on the left part and on the right
  part. Each reads the operand at the evident index; stated over generic extents.
-/
import Idealize.ShloMosaic.Lib.Pipeline.Value
import Idealize.ShloMosaic.Lib.ValueIdx

noncomputable section

open Idealize.ShloMosaic Idealize.ShloMosaic.ValueIdx

namespace RowLayout

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- `[x₁ | x₂]` read at a column of the left part is `x₁` there. -/
theorem concat_cols_left {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : k.val < b₁) :
    concatenate ⟨2, ![a, b]⟩ 1 [⟨⟨2, ![a, b₁]⟩, x₁⟩, ⟨⟨2, ![a, b₂]⟩, x₂⟩] h (ix2 p k) = x₁ (ix2 p ⟨k.val, hk⟩) :=
  concatenate_pair_apply_left 1 x₁ x₂ h (ix2 p k) rfl (ix2 p ⟨k.val, hk⟩) fun c => by
    match c with
    | ⟨0, _⟩ => rfl
    | ⟨1, _⟩ => rfl

/-- `[x₁ | x₂]` read at a column of the right part is `x₂` at that column less the left part's width. -/
theorem concat_cols_right {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : b₁ ≤ k.val)
    (hk₂ : k.val - b₁ < b₂) :
    concatenate ⟨2, ![a, b]⟩ 1 [⟨⟨2, ![a, b₁]⟩, x₁⟩, ⟨⟨2, ![a, b₂]⟩, x₂⟩] h (ix2 p k) = x₂ (ix2 p ⟨k.val - b₁, hk₂⟩) :=
  concatenate_pair_apply_right 1 x₁ x₂ h (ix2 p k) rfl rfl (ix2 p ⟨k.val - b₁, hk₂⟩)
    (fun c hc => by
      match c with
      | ⟨0, _⟩ => rfl
      | ⟨1, _⟩ => exact absurd rfl hc)
    (by show k.val - b₁ + b₁ = k.val; omega)

end RowLayout

end
-- ==== Proof.Region3.lean ====
/-
  Region 3 of the program: bias, then the softmax of each row, in ten row blocks of 5000 rows. At each grid point
  the body adds the bias vector to the point's block of rows, takes each row's maximum (a fold of max from −∞ over
  the row's four entries, kept as a column and broadcast back along the row), subtracts it, exponentiates, sums
  each row (kept and broadcast the same way) and divides. Every entry of the result depends on its own row of the
  block only, so the block written back is the same rows of the softmax of the whole biased array. The ten blocks
  tile the result array.
-/
import proofs.«179261_j3504693313899_2_alg».proof.Proof.Gen.KernelIdeal.Frame
import proofs.«179261_j3504693313899_2_alg».proof.Proof.GcnSpec
import proofs.«179261_j3504693313899_2_alg».proof.Proof.LibRowLayout
import Idealize.ShloMosaic.Lib.ValueLayout
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

-- the buffer contents when the region is entered: a parameter
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The pattern of −∞ denotes −∞. -/
theorem negInf : Ideal.ofBits .f32 0xFF800000#32 = ⊥ := by simp [Ideal.ofBits, Ideal.ieee]

/-- A row's maximum on the vector unit: the fold of max from −∞ over the row's four entries. -/
theorem rowmax_apply (y : FVec Ideal S5000x4 .f32) (p : Fin 5000) :
    multiReduction .maximumf [1] S5000 y 0xFF800000#32 reduces_S5000x4_S5000 (.inl rfl) rfl (ix1 p)
      = Gcn.rowMax (fun k : Fin 4 => y (ix2 p k)) := by
  refine (Ideal.multiReduction_maximumf_single y 0xFF800000#32 reduces_S5000x4_S5000 (.inl rfl) rfl (ix1 p)).trans ?_
  show (Finset.univ : Finset (Fin 4)).fold max (Ideal.ofBits .f32 0xFF800000#32) (y ∘ reduces_S5000x4_S5000.lift (ix1 p))
    = (Finset.univ : Finset (Fin 4)).fold max ⊥ (fun k : Fin 4 => y (ix2 p k))
  rw [negInf]
  refine congrArg (fun f => (Finset.univ : Finset (Fin 4)).fold max ⊥ f) (funext fun k => ?_)
  exact congrArg y (funext fun a => Fin.ext (by match a with | ⟨0, _⟩ => rfl | ⟨1, _⟩ => rfl))

/-- A row's sum on the vector unit: the sum of the row's four entries. -/
theorem rowsum_apply (y : FVec Ideal S5000x4 .f32) (p : Fin 5000) :
    multiReduction .add [1] S5000 y 0x00000000#32 reduces_S5000x4_S5000 (.inl rfl) rfl (ix1 p)
      = ∑ k : Fin 4, y (ix2 p k) := by
  refine (Ideal.multiReduction_add_single y 0x00000000#32 reduces_S5000x4_S5000 (.inl rfl) rfl (ix1 p)).trans ?_
  refine Finset.sum_congr rfl fun k _ => ?_
  exact congrArg y (funext fun a => Fin.ext (by match a with | ⟨0, _⟩ => rfl | ⟨1, _⟩ => rfl))

/-- A per-row value kept as a column and broadcast back along the row reads the row's value. -/
theorem keep_apply (z : FVec Ideal S5000 .f32) (p : Fin 5000) (q : Fin 4) :
    broadcastTo S5000x4 (shapeCast S5000x1 z shapeCasts_S5000_S5000x1) broadcasts_S5000x1_S5000x4 (ix2 p q) = z (ix1 p) := by
  rw [RowLayout.broadcastTo_a1_ab_apply, RowLayout.shapeCast_a_a1_apply]

/-- The softmax of the rows of a block, as the body computes it, at an entry. -/
theorem softmax_block (y : FVec Ideal S5000x4 .f32) (p : Fin 5000) (q : Fin 4) :
    divf
      (exp (subf y (broadcastTo S5000x4 (shapeCast S5000x1
        (multiReduction .maximumf [1] S5000 y 0xFF800000#32 reduces_S5000x4_S5000 (.inl rfl) rfl) shapeCasts_S5000_S5000x1) broadcasts_S5000x1_S5000x4)))
      (broadcastTo S5000x4 (shapeCast S5000x1
        (multiReduction .add [1] S5000
          (exp (subf y (broadcastTo S5000x4 (shapeCast S5000x1
            (multiReduction .maximumf [1] S5000 y 0xFF800000#32 reduces_S5000x4_S5000 (.inl rfl) rfl) shapeCasts_S5000_S5000x1) broadcasts_S5000x1_S5000x4)))
          0x00000000#32 reduces_S5000x4_S5000 (.inl rfl) rfl) shapeCasts_S5000_S5000x1) broadcasts_S5000x1_S5000x4)
      (ix2 p q)
    = Gcn.smRow (fun k : Fin 4 => y (ix2 p k)) q := by
  have he : ∀ k : Fin 4, exp (subf y (broadcastTo S5000x4 (shapeCast S5000x1
        (multiReduction .maximumf [1] S5000 y 0xFF800000#32 reduces_S5000x4_S5000 (.inl rfl) rfl) shapeCasts_S5000_S5000x1) broadcasts_S5000x1_S5000x4)) (ix2 p k)
      = Ideal.exp (y (ix2 p k) - Gcn.rowMax (fun k : Fin 4 => y (ix2 p k))) := fun k => by
    show Ideal.exp (y (ix2 p k) - broadcastTo S5000x4 (shapeCast S5000x1
        (multiReduction .maximumf [1] S5000 y 0xFF800000#32 reduces_S5000x4_S5000 (.inl rfl) rfl) shapeCasts_S5000_S5000x1) broadcasts_S5000x1_S5000x4 (ix2 p k)) = _
    rw [keep_apply, rowmax_apply]
  rw [divf_apply, keep_apply, rowsum_apply, he q]
  unfold Gcn.smRow
  refine congrArg (Ideal.div _) (Finset.sum_congr rfl fun k _ => he k)

/-- The body's stored value: the softmax of the rows of block + bias. -/
theorem pay_eq (x0 : Vec Ideal S5000x4 .f32) (x1 : Vec Ideal S4 .f32) :
    k3_pay1 (F := Ideal) x0 x1 = Gcn.biasSoftmax x0 x1 := by
  funext j
  obtain ⟨p, q, rfl⟩ : ∃ (p : Fin 5000) (q : Fin 4), j = ix2 p q := ⟨j 0, j 1, eq_ix2 j⟩
  rw [Gcn.biasSoftmax_apply]
  unfold k3_pay1
  refine (softmax_block _ p q).trans ?_
  refine congrArg (fun f => Gcn.smRow f q) (funext fun k => ?_)
  rw [shapeCast_self]
  show x0 (ix2 p k) + broadcastTo S5000x4 (shapeCast S1x4 x1 shapeCasts_S4_S1x4) broadcasts_S1x4_S5000x4 (ix2 p k) = _
  rw [broadcastTo_1b_ab_apply, shapeCast_a_1a_apply]

/-- The printed index maps over the grid: the input's and the result's blocks are row block `t`, the bias's is the
    whole vector. -/
theorem idx_facts : ∀ t : Fin cfg3.N, win3_0.index t (0 : Fin 2) = t.val
    ∧ win3_0.index t (1 : Fin 2) = 0
    ∧ win3_1.index t (0 : Fin 1) = 0
    ∧ win3_2.index t (0 : Fin 2) = t.val
    ∧ win3_2.index t (1 : Fin 2) = 0 :=
  (by decide +kernel : ∀ t : Fin grid3.N, _)

/-- What point `t` writes back is block `t` of the softmax of the rows of the whole biased array the region found. -/
theorem flushed_eq (c : Dev nD) (t : Fin cfg3.N) :
    (dat3 V c).flushed 2 t = ((cfg3.win 2).blk t).view.read (Elt Ideal)
      (Gcn.biasSoftmax (V c main_v60 : S50000x4.Idx → EReal) (V c main_arg6 : S4.Idx → EReal)) := by
  show (cfg3.win 2).cut (grid3.coords t) ((dat3 V c).after 2 t) = _
  rw [after3_2]
  unfold out3_2
  rw [View.canon_unit_zero hz2]
  simp only [View.ld_unit_zero (S := S5000x4) hz2, View.ld_unit_zero (S := S4) hz1]
  rw [pay_eq]
  obtain ⟨e0, e1, e2, e3, e4⟩ := idx_facts t
  funext j
  show Gcn.biasSoftmax (iblk3 V c 0 t) (iblk3 V c 1 t) ((win3 2).xinj (grid3.coords t) j)
    = Gcn.biasSoftmax (V c main_v60 : S50000x4.Idx → EReal) (V c main_arg6 : S4.Idx → EReal) (((cfg3.win 2).blk t).view.emb j)
  unfold Gcn.biasSoftmax
  refine congrArg₂ Gcn.smRow (funext fun k => congrArg₂ (· + ·) ?_ ?_) (Fin.ext ?_)
  · show (V c main_v60 : S50000x4.Idx → EReal) (((cfg3.win 0).blk t).view.emb _) = (V c main_v60 : S50000x4.Idx → EReal) _
    refine congrArg (V c main_v60 : S50000x4.Idx → EReal) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 4 + 1 * k.val = k.val; omega
  · show (V c main_arg6 : S4.Idx → EReal) (((cfg3.win 1).blk t).view.emb _) = (V c main_arg6 : S4.Idx → EReal) _
    refine congrArg (V c main_arg6 : S4.Idx → EReal) (funext fun a => Fin.ext ?_)
    match a with
    | ⟨0, _⟩ => show win3_1.index t (0 : Fin 1) * 4 + 1 * k.val = k.val; omega
  · show (j 1).val = win3_2.index t (1 : Fin 2) * 4 + 1 * (j 1).val
    omega

/-- An index of the result array is in point `t`'s block iff each coordinate is in the block's range on its axis. -/
theorem mem_blk (t : Fin cfg3.N) (i : S50000x4.Idx) :
    i ∈ ((cfg3.win 2).blk t).view.set ↔ ∀ a : Fin 2, win3_2.index t a * S5000x4.size a ≤ (i a).val ∧ (i a).val < win3_2.index t a * S5000x4.size a + S5000x4.size a := by
  show i ∈ ((View.whole main_v61).slice (win3_2.rect t)).set ↔ _
  rw [View.set_slice_whole, Rect.mem_set_unit]
  exact Iff.rfl

/-- Row `r` of the result is in the block of point `r / 5000`: the ten row blocks cover the array. -/
theorem cover (i : S50000x4.Idx) : ∃ t : Fin cfg3.N, (cfg3.win 2).flush t = true ∧ i ∈ ((cfg3.win 2).blk t).view.set := by
  have hi0 : (i 0).val < 50000 := (i 0).isLt
  have hi1 : (i 1).val < 4 := (i 1).isLt
  have hN : cfg3.N = 10 := N_3
  let t : Fin cfg3.N := ⟨(i 0).val / 5000, by rw [hN]; omega⟩
  obtain ⟨e0, e1, e2, e3, e4⟩ := idx_facts t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    rw [e3]
    show (i 0).val / 5000 * 5000 ≤ (i 0).val ∧ (i 0).val < (i 0).val / 5000 * 5000 + 5000
    omega
  | ⟨1, _⟩ =>
    show win3_2.index t (1 : Fin 2) * 4 ≤ (i 1).val ∧ (i 1).val < win3_2.index t (1 : Fin 2) * 4 + 4
    omega

/-- After the region its result array holds `Gcn.biasSoftmax` of the two operand arrays as the region found them. -/
theorem final (c : Dev nD) : (dat3 V c).arrAt 2 cfg3.N
    = Gcn.biasSoftmax (V c main_v60 : S50000x4.Idx → EReal) (V c main_arg6 : S4.Idx → EReal) :=
  (dat3 V c).arrAt_eq_of_cover 2 _ (fun t _ => flushed_eq V c t) cover

end Cert.KernelIdeal.Region3

end
-- ==== Proof.LibTypedRef.lean ====
/-
  Typed references of a host program: the transport of contents along a buffer's type equation is the identity.

  A called host function's operations name their buffers as TYPED references: a reference `r` together with the
  equation `r.ty = T`, and they read and write contents through the transport along that equation
  (`ofBuf`, `toBuf`: a `cast`). A transport along an equation of types changes nothing but the type: what it
  returns is heterogeneously equal to what it was given. Hence reading back through a typed reference what was
  written through it gives the contents back, and reading or writing through a typed reference contents that are
  heterogeneously equal to `w` gives `w` (at a literal reference the two types are the same by computation, and the
  heterogeneous equality is reflexivity). Proved by substituting the type equation, never by unfolding the transport.
  General in the program's signature and the value family.
-/
import Idealize.ShloMosaic.Lib.StableHlo.Run

namespace TypedRef

open Idealize.ShloMosaic Idealize.ShloMosaic.StableHlo

variable {sig : RefSig} {Val : EltTy → Type}

/-- Reading back through a typed reference what was put through it. -/
theorem ofBuf_toBuf {T : BufTy} (x : TRef sig T) (v : T.Contents Val) : x.ofBuf (x.toBuf v) = v := by
  unfold TRef.ofBuf TRef.toBuf
  rw [cast_cast]
  exact cast_eq _ _

/-- Contents read through a typed reference are the contents. -/
theorem ofBuf_lit (r : Ref sig .tc) (T : BufTy) (h : r.ty = T) (h2 : r.space ≠ .host) (h3 : r.isScoped = false)
    (v : r.ty.Contents Val) (w : T.Contents Val) (hvw : HEq v w) : (TRef.of r h h2 h3).ofBuf v = w := by
  subst h
  exact eq_of_heq ((cast_heq _ _).trans hvw)

/-- Contents put through a typed reference are the contents. -/
theorem toBuf_lit (r : Ref sig .tc) (T : BufTy) (h : r.ty = T) (h2 : r.space ≠ .host) (h3 : r.isScoped = false)
    (w : T.Contents Val) (v : r.ty.Contents Val) (hwv : HEq w v) : (TRef.of r h h2 h3).toBuf w = v := by
  subst h
  exact eq_of_heq ((cast_heq _ _).trans hwv)

end TypedRef
-- ==== Proof.HostChain.lean ====
/-
  The host operations of the program, stretch by stretch, read as the reference's stages.

  Between its four dense regions the program gathers rows along the edge list (with self-loops appended), weighs
  them by the edge normalisation, and scatter-adds them into the destination rows: the same operations, of the
  same operands, as the reference's. From any buffer contents `U`:
  * the operations before the first region leave the source and destination lists and the normalisation the
    reference computes from the edge arguments (the `where` helper's buffers are read through their typed
    references, whose transport is the identity);
  * the stretch after the first product leaves the first aggregated array, given that its operands hold the
    reference's product, lists and normalisation;
  * the stretch after the second product leaves the second aggregated array likewise (the reference computes
    the lists and the normalisation a second time: its second copies are the operands here).
  Each stretch writes none of the buffers a later stretch or region still reads from an earlier one.
-/
import proofs.«179261_j3504693313899_2_alg».proof.Proof.Gen.KernelIdeal.Frame
import proofs.«179261_j3504693313899_2_alg».proof.Proof.Gen.ReferenceIdeal.Read
import proofs.«179261_j3504693313899_2_alg».proof.Proof.LibTypedRef

noncomputable section

open Idealize.ShloMosaic Idealize.ShloMosaic.TcCoe Idealize.SL.Sem Idealize.ShloMosaic.StableHlo

namespace Cert.KernelIdeal.HostChain

open Cert.KernelIdeal Cert.KernelIdeal.Gen

variable (U : Valuation τ sig (Elt Ideal))

/-! ## The typed references of the `where` helper: reading and writing through them is the identity -/

theorem of13 (v : main_v13.ty.Contents (Elt Ideal)) : (TRef.of main_v13 : TRef sig ⟨S50000, .i1⟩).ofBuf v = v :=
  TypedRef.ofBuf_lit main_v13 _ _ _ _ v v HEq.rfl
theorem of14 (v : main_v14.ty.Contents (Elt Ideal)) : (TRef.of main_v14 : TRef sig ⟨S50000, .f32⟩).ofBuf v = v :=
  TypedRef.ofBuf_lit main_v14 _ _ _ _ v v HEq.rfl
theorem ofcst2 (v : main_cst_2.ty.Contents (Elt Ideal)) : (TRef.of main_cst_2 : TRef sig ⟨S_, .f32⟩).ofBuf v = v :=
  TypedRef.ofBuf_lit main_cst_2 _ _ _ _ v v HEq.rfl
theorem to15 (w : (⟨S50000, .f32⟩ : BufTy).Contents (Elt Ideal)) : (TRef.of main_v15 : TRef sig ⟨S50000, .f32⟩).toBuf w = w :=
  TypedRef.toBuf_lit main_v15 _ _ _ _ w w HEq.rfl

/-! ## Before the first region -/

/-- The contents after the three stretches of host operations before the first region. -/
abbrev pre (U : Valuation τ sig (Elt Ideal)) : Valuation τ sig (Elt Ideal) :=
  StableHlo.after (hostOps0_2 (F := Ideal)) (StableHlo.after (hostOps0_1 (F := Ideal)) (StableHlo.after (hostOps0 (F := Ideal)) U))

set_option maxHeartbeats 1000000 in
/-- The source list with self-loops. -/
theorem pre_v5 : pre U (Proc.devRef .tc main_v5) = Cert.ReferenceIdeal.Read.val_main_v5 (F := Ideal) (U (Proc.devRef .tc main_arg1)) := by
  after_results_simp
  rfl

set_option maxHeartbeats 1000000 in
/-- The destination list with self-loops. -/
theorem pre_v6 : pre U (Proc.devRef .tc main_v6) = Cert.ReferenceIdeal.Read.val_main_v6 (F := Ideal) (U (Proc.devRef .tc main_arg1)) := by
  after_results_simp
  rfl

set_option maxHeartbeats 4000000 in
/-- The edge normalisation. -/
theorem pre_v31 : pre U (Proc.devRef .tc main_v31)
    = Cert.ReferenceIdeal.Read.val_main_v31 (F := Ideal) (U (Proc.devRef .tc main_arg1)) (U (Proc.devRef .tc main_arg2)) := by
  after_results_simp
  simp only [TypedRef.ofBuf_toBuf, of13, of14, ofcst2, to15]
  rfl

set_option maxHeartbeats 1000000 in
theorem pre_arg0 : pre U (Proc.devRef .tc main_arg0) = U (Proc.devRef .tc main_arg0) := by
  after_results_simp

set_option maxHeartbeats 1000000 in
theorem pre_arg3 : pre U (Proc.devRef .tc main_arg3) = U (Proc.devRef .tc main_arg3) := by
  after_results_simp

set_option maxHeartbeats 1000000 in
theorem pre_arg4 : pre U (Proc.devRef .tc main_arg4) = U (Proc.devRef .tc main_arg4) := by
  after_results_simp

set_option maxHeartbeats 1000000 in
theorem pre_arg5 : pre U (Proc.devRef .tc main_arg5) = U (Proc.devRef .tc main_arg5) := by
  after_results_simp

set_option maxHeartbeats 1000000 in
theorem pre_arg6 : pre U (Proc.devRef .tc main_arg6) = U (Proc.devRef .tc main_arg6) := by
  after_results_simp

/-! ## Between the first product and the bias + positive part -/

set_option maxHeartbeats 2000000 in
/-- The first aggregated array. -/
theorem mid_v45 (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) (x3 : (⟨Cert.ReferenceIdeal.S128x128, .f32⟩ : BufTy).Contents (Elt Ideal))
    (h32 : U (Proc.devRef .tc main_v32) = Cert.ReferenceIdeal.Read.val_main_v32 (F := Ideal) x0 x3)
    (h5 : U (Proc.devRef .tc main_v5) = Cert.ReferenceIdeal.Read.val_main_v5 (F := Ideal) x1)
    (h6 : U (Proc.devRef .tc main_v6) = Cert.ReferenceIdeal.Read.val_main_v6 (F := Ideal) x1)
    (h31 : U (Proc.devRef .tc main_v31) = Cert.ReferenceIdeal.Read.val_main_v31 (F := Ideal) x1 x2) :
    StableHlo.after (hostOps1 (F := Ideal)) U (Proc.devRef .tc main_v45) = Cert.ReferenceIdeal.Read.val_main_v45 (F := Ideal) x0 x1 x2 x3 := by
  after_results_simp
  rw [h32, h5, h6, h31]
  rfl

set_option maxHeartbeats 1000000 in
theorem mid_v5 : StableHlo.after (hostOps1 (F := Ideal)) U (Proc.devRef .tc main_v5) = U (Proc.devRef .tc main_v5) := by
  after_results_simp

set_option maxHeartbeats 1000000 in
theorem mid_v6 : StableHlo.after (hostOps1 (F := Ideal)) U (Proc.devRef .tc main_v6) = U (Proc.devRef .tc main_v6) := by
  after_results_simp

set_option maxHeartbeats 1000000 in
theorem mid_v31 : StableHlo.after (hostOps1 (F := Ideal)) U (Proc.devRef .tc main_v31) = U (Proc.devRef .tc main_v31) := by
  after_results_simp

set_option maxHeartbeats 1000000 in
theorem mid_arg4 : StableHlo.after (hostOps1 (F := Ideal)) U (Proc.devRef .tc main_arg4) = U (Proc.devRef .tc main_arg4) := by
  after_results_simp

set_option maxHeartbeats 1000000 in
theorem mid_arg5 : StableHlo.after (hostOps1 (F := Ideal)) U (Proc.devRef .tc main_arg5) = U (Proc.devRef .tc main_arg5) := by
  after_results_simp

set_option maxHeartbeats 1000000 in
theorem mid_arg6 : StableHlo.after (hostOps1 (F := Ideal)) U (Proc.devRef .tc main_arg6) = U (Proc.devRef .tc main_arg6) := by
  after_results_simp

/-! ## Between the second product and the bias + softmax -/

set_option maxHeartbeats 2000000 in
/-- The second aggregated array. -/
theorem last_v60 (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x4, .f32⟩ : BufTy).Contents (Elt Ideal))
    (h47 : U (Proc.devRef .tc main_v47) = Cert.ReferenceIdeal.Read.val_main_v78 (F := Ideal) x0 x1 x2 x3 x4 x5)
    (h5 : U (Proc.devRef .tc main_v5) = Cert.ReferenceIdeal.Read.val_main_v51 (F := Ideal) x1)
    (h6 : U (Proc.devRef .tc main_v6) = Cert.ReferenceIdeal.Read.val_main_v52 (F := Ideal) x1)
    (h31 : U (Proc.devRef .tc main_v31) = Cert.ReferenceIdeal.Read.val_main_v77 (F := Ideal) x1 x2) :
    StableHlo.after (hostOps3 (F := Ideal)) U (Proc.devRef .tc main_v60) = Cert.ReferenceIdeal.Read.val_main_v91 (F := Ideal) x0 x1 x2 x3 x4 x5 := by
  after_results_simp
  rw [h47, h5, h6, h31]
  rfl

set_option maxHeartbeats 1000000 in
theorem last_arg6 : StableHlo.after (hostOps3 (F := Ideal)) U (Proc.devRef .tc main_arg6) = U (Proc.devRef .tc main_arg6) := by
  after_results_simp

end Cert.KernelIdeal.HostChain

end
-- ==== Proof.RefStages.lean ====
/-
  The reference's dense stages as the whole-array functions of `Gcn`: its first product is `mm` of the features and
  the first weights; its first layer's output (bias, then the positive part) is `biasRelu` of the aggregated
  array; its second product is `mm` of that output and the second weights; its result (bias, then the softmax of
  each row, with the row's maximum taken against −∞ once more) is `biasSoftmax` of the second aggregated array.
  The reference computes the edge lists with self-loops and the edge normalisation twice, by the same operations
  of the same arguments: the second copies are the first.
-/
import proofs.«179261_j3504693313899_2_alg».proof.Proof.Gen.ReferenceIdeal.Read
import proofs.«179261_j3504693313899_2_alg».proof.Proof.GcnSpec
import proofs.«179261_j3504693313899_2_alg».proof.Proof.LibPlainDot

noncomputable section

open scoped BigOperators

namespace Cert.ReferenceIdeal.Stages

open Cert.ReferenceIdeal Cert.ReferenceIdeal.Gen Cert.ReferenceIdeal.Read
open Idealize.ShloMosaic Idealize.ShloMosaic.ValueIdx

/-- The pattern of −∞ denotes −∞. -/
theorem negInf : Ideal.ofBits .f32 0xFF800000#32 = ⊥ := by simp [Ideal.ofBits, Ideal.ieee]

variable (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 : (⟨S128, .f32⟩ : BufTy).Contents (Elt Ideal)) (x5 : (⟨S128x4, .f32⟩ : BufTy).Contents (Elt Ideal)) (x6 : (⟨S4, .f32⟩ : BufTy).Contents (Elt Ideal))

/-- The first product. -/
theorem v32_eq : val_main_v32 (F := Ideal) x0 x3 = Gcn.mm x0 x3 := by
  funext j
  unfold val_main_v32
  simp only [Host.dotGeneral]
  exact PlainDot.dotGeneral_apply dot_S50000x128_S128x128_S50000x128_1_0_0_1_n_n ⟨rfl, rfl, rfl, rfl, rfl, rfl⟩ rfl rfl none _ x0 x3 j

/-- The first layer's output: the aggregated array plus the bias, its positive part. -/
theorem v49_eq : val_main_v49 (F := Ideal) x0 x1 x2 x3 x4 = Gcn.biasRelu (val_main_v45 (F := Ideal) x0 x1 x2 x3) x4 := by
  funext i
  obtain ⟨r, c, rfl⟩ : ∃ (r : Fin 50000) (c : Fin 128), i = ix2 r c := ⟨i 0, i 1, eq_ix2 i⟩
  rw [val_main_v49_apply, val_main_v48_apply, val_main_v47_apply, val_main_v46_apply, val_main_call1_v0_apply,
    val_main_call1_cst_apply]
  have e : idx_main_v46 (idx_main_v47 (ix2 r c)) = ix1 c := funext fun a => Fin.ext (by match a with | ⟨0, _⟩ => rfl)
  rw [e, Gcn.biasRelu_apply]
  simp only [Ideal.maximumf_def, Ideal.addf_def, Ideal.ofBits_def, Ideal.ofBits_zero_f32]

/-- The second product. -/
theorem v78_eq : val_main_v78 (F := Ideal) x0 x1 x2 x3 x4 x5 = Gcn.mm (val_main_v49 (F := Ideal) x0 x1 x2 x3 x4) x5 := by
  funext j
  unfold val_main_v78
  generalize val_main_v49 (F := Ideal) x0 x1 x2 x3 x4 = h
  simp only [Host.dotGeneral]
  exact PlainDot.dotGeneral_apply dot_S50000x128_S128x4_S50000x4_1_0_0_1_n_n ⟨rfl, rfl, rfl, rfl, rfl, rfl⟩ rfl rfl none _ h x5 j

/-! ## The result: bias, then the softmax of each row -/

/-- Row `r` of the second aggregated array plus the bias. -/
abbrev xrow (r : Fin 50000) : Fin 4 → EReal :=
  fun k => val_main_v91 (F := Ideal) x0 x1 x2 x3 x4 x5 (ix2 r k) + x6 (ix1 k)

theorem v94_at (r : Fin 50000) (c : Fin 4) :
    val_main_v94 (F := Ideal) x0 x1 x2 x3 x4 x5 x6 (ix2 r c) = xrow x0 x1 x2 x3 x4 x5 x6 r c := by
  rw [val_main_v94_apply, val_main_v93_apply, val_main_v92_apply]
  have e : idx_main_v92 (idx_main_v93 (ix2 r c)) = ix1 c := funext fun a => Fin.ext (by match a with | ⟨0, _⟩ => rfl)
  rw [e]
  rfl

/-- A row's maximum on the host: the fold of max from −∞ over the row's four entries. -/
theorem rowmax_host (y : (⟨S50000x4, .f32⟩ : BufTy).Contents (Elt Ideal)) (r : Fin 50000) :
    Host.reduce (FloatOps.maximumf (F := Ideal) (φ := .f32)) y (constant S_ .f32 0xFF800000#32) reducesTo_S50000x4_S50000_d1 h_S_ (ix1 r)
      = Gcn.rowMax (fun k : Fin 4 => y (ix2 r k)) := by
  have hR : S50000x4.Reduces [(1 : Fin 2)] S50000 := by decide
  refine (Host.reduce_eq_fold_single (FloatOps.maximumf (F := Ideal) (φ := .f32)) y _ reducesTo_S50000x4_S50000_d1 hR h_S_ (ix1 r)).trans ?_
  show (Finset.univ : Finset (Fin 4)).fold max (Ideal.ofBits .f32 0xFF800000#32) (y ∘ hR.lift (ix1 r))
    = (Finset.univ : Finset (Fin 4)).fold max ⊥ (fun k : Fin 4 => y (ix2 r k))
  rw [negInf]
  refine congrArg (fun f => (Finset.univ : Finset (Fin 4)).fold max ⊥ f) (funext fun k => ?_)
  exact congrArg y (funext fun a => Fin.ext (by match a with | ⟨0, _⟩ => rfl | ⟨1, _⟩ => rfl))

/-- The row's maximum, taken against −∞ once more. -/
theorem v97_at (r : Fin 50000) :
    val_main_v97 (F := Ideal) x0 x1 x2 x3 x4 x5 x6 (ix1 r) = Gcn.rowMax (xrow x0 x1 x2 x3 x4 x5 x6 r) := by
  rw [val_main_v97_apply, val_main_v96_apply, val_main_cst_21_apply]
  show max (Ideal.ofBits .f32 0xFF800000#32) (val_main_v95 (F := Ideal) x0 x1 x2 x3 x4 x5 x6 (ix1 r)) = _
  rw [negInf, max_eq_right bot_le]
  unfold val_main_v95 val_main_cst_20
  refine (rowmax_host _ r).trans ?_
  exact congrArg Gcn.rowMax (funext fun k => v94_at x0 x1 x2 x3 x4 x5 x6 r k)

theorem v101_at (r : Fin 50000) (c : Fin 4) :
    val_main_v101 (F := Ideal) x0 x1 x2 x3 x4 x5 x6 (ix2 r c)
      = Ideal.exp (xrow x0 x1 x2 x3 x4 x5 x6 r c - Gcn.rowMax (xrow x0 x1 x2 x3 x4 x5 x6 r)) := by
  rw [val_main_v101_apply, val_main_v100_apply, val_main_v99_apply, val_main_v98_apply]
  have e : idx_main_v98 (idx_main_v99 (ix2 r c)) = ix1 r := funext fun a => Fin.ext (by match a with | ⟨0, _⟩ => rfl)
  rw [e, v97_at, v94_at]
  simp only [Ideal.hostUnary_exp_def, Ideal.subf_def]

theorem v102_at (r : Fin 50000) :
    val_main_v102 (F := Ideal) x0 x1 x2 x3 x4 x5 x6 (ix1 r)
      = ∑ k : Fin 4, Ideal.exp (xrow x0 x1 x2 x3 x4 x5 x6 r k - Gcn.rowMax (xrow x0 x1 x2 x3 x4 x5 x6 r)) := by
  rw [val_main_v102_apply, val_main_cst_22_apply]
  show Ideal.ofBits .f32 0x00000000#32 + _ = _
  rw [Ideal.ofBits_zero_f32, zero_add]
  refine Finset.sum_congr rfl fun k _ => ?_
  rw [show idx_main_v102 (ix1 r) k = ix2 r k from funext fun a => Fin.ext (by match a with | ⟨0, _⟩ => rfl | ⟨1, _⟩ => rfl)]
  exact v101_at x0 x1 x2 x3 x4 x5 x6 r k

/-- The result. -/
theorem v105_eq : val_main_v105 (F := Ideal) x0 x1 x2 x3 x4 x5 x6
    = Gcn.biasSoftmax (val_main_v91 (F := Ideal) x0 x1 x2 x3 x4 x5) x6 := by
  funext i
  obtain ⟨r, c, rfl⟩ : ∃ (r : Fin 50000) (c : Fin 4), i = ix2 r c := ⟨i 0, i 1, eq_ix2 i⟩
  rw [val_main_v105_apply, val_main_v104_apply, val_main_v103_apply]
  have e : idx_main_v103 (idx_main_v104 (ix2 r c)) = ix1 r := funext fun a => Fin.ext (by match a with | ⟨0, _⟩ => rfl)
  rw [e, v102_at, v101_at, Gcn.biasSoftmax_apply]
  rfl

/-! ## The reference computes the edge lists and the normalisation twice: the second copies are the first -/

theorem v51_eq : val_main_v51 (F := Ideal) x1 = val_main_v5 (F := Ideal) x1 := rfl
theorem v52_eq : val_main_v52 (F := Ideal) x1 = val_main_v6 (F := Ideal) x1 := rfl
theorem v77_eq : val_main_v77 (F := Ideal) x1 x2 = val_main_v31 (F := Ideal) x1 x2 := rfl

end Cert.ReferenceIdeal.Stages

end
-- ==== Proof.Chain.lean ====
/-
  The result of the program as the reference's result.

  The buffer contents at each boundary between a stretch of host operations and a region, followed from the
  launch to the return: before the first region the edge lists and the normalisation are the reference's; the
  first region leaves the reference's first product; the next stretch the reference's first aggregated array;
  the second region its bias + positive part; the third region the reference's second product; the next
  stretch the second aggregated array; the last region the bias + softmax, which is the reference's result.
  A region changes its own three arrays only, a stretch of host operations the buffers it writes only, so the
  lists, the normalisation and the argument arrays are carried unchanged to where they are read.
-/
import proofs.«179261_j3504693313899_2_alg».proof.Proof.Region0
import proofs.«179261_j3504693313899_2_alg».proof.Proof.Region1
import proofs.«179261_j3504693313899_2_alg».proof.Proof.Region2
import proofs.«179261_j3504693313899_2_alg».proof.Proof.Region3
import proofs.«179261_j3504693313899_2_alg».proof.Proof.HostChain
import proofs.«179261_j3504693313899_2_alg».proof.Proof.RefStages

noncomputable section

open Idealize.ShloMosaic Idealize.ShloMosaic.TcCoe Idealize.SL.Sem

namespace Cert.KernelIdeal.Chain

open Cert.KernelIdeal Cert.KernelIdeal.Gen

variable (m : (ℓ : Loc nD τ sig) → Buf (Elt Ideal) ℓ) (ρ : Dev nD → PrngReg) (c : Dev nD)

/-! ## The argument arrays as launched -/
abbrev arg0 : (⟨Cert.ReferenceIdeal.S50000x128, .f32⟩ : BufTy).Contents (Elt Ideal) := m ((c.tc : Thread nD τ).loc main_arg0)
abbrev arg1 : (⟨Cert.ReferenceIdeal.S2x800000, .i32⟩ : BufTy).Contents (Elt Ideal) := m ((c.tc : Thread nD τ).loc main_arg1)
abbrev arg2 : (⟨Cert.ReferenceIdeal.S800000, .f32⟩ : BufTy).Contents (Elt Ideal) := m ((c.tc : Thread nD τ).loc main_arg2)
abbrev arg3 : (⟨Cert.ReferenceIdeal.S128x128, .f32⟩ : BufTy).Contents (Elt Ideal) := m ((c.tc : Thread nD τ).loc main_arg3)
abbrev arg4 : (⟨Cert.ReferenceIdeal.S128, .f32⟩ : BufTy).Contents (Elt Ideal) := m ((c.tc : Thread nD τ).loc main_arg4)
abbrev arg5 : (⟨Cert.ReferenceIdeal.S128x4, .f32⟩ : BufTy).Contents (Elt Ideal) := m ((c.tc : Thread nD τ).loc main_arg5)
abbrev arg6 : (⟨Cert.ReferenceIdeal.S4, .f32⟩ : BufTy).Contents (Elt Ideal) := m ((c.tc : Thread nD τ).loc main_arg6)

/-! ## At the first region's entry -/

theorem w3_v5 : W3 m ρ c (Proc.devRef .tc main_v5) = Cert.ReferenceIdeal.Read.val_main_v5 (F := Ideal) (arg1 m c) := HostChain.pre_v5 (W0 m ρ c)
theorem w3_v6 : W3 m ρ c (Proc.devRef .tc main_v6) = Cert.ReferenceIdeal.Read.val_main_v6 (F := Ideal) (arg1 m c) := HostChain.pre_v6 (W0 m ρ c)
theorem w3_v31 : W3 m ρ c (Proc.devRef .tc main_v31) = Cert.ReferenceIdeal.Read.val_main_v31 (F := Ideal) (arg1 m c) (arg2 m c) := HostChain.pre_v31 (W0 m ρ c)
theorem w3_arg0 : W3 m ρ c (Proc.devRef .tc main_arg0) = arg0 m c := HostChain.pre_arg0 (W0 m ρ c)
theorem w3_arg3 : W3 m ρ c (Proc.devRef .tc main_arg3) = arg3 m c := HostChain.pre_arg3 (W0 m ρ c)
theorem w3_arg4 : W3 m ρ c (Proc.devRef .tc main_arg4) = arg4 m c := HostChain.pre_arg4 (W0 m ρ c)
theorem w3_arg5 : W3 m ρ c (Proc.devRef .tc main_arg5) = arg5 m c := HostChain.pre_arg5 (W0 m ρ c)
theorem w3_arg6 : W3 m ρ c (Proc.devRef .tc main_arg6) = arg6 m c := HostChain.pre_arg6 (W0 m ρ c)

/-! ## After the first region: the first product -/

theorem w4_v32 : W4 m ρ c (Proc.devRef .tc main_v32) = Cert.ReferenceIdeal.Read.val_main_v32 (F := Ideal) (arg0 m c) (arg3 m c) :=
  (W4_arr m ρ c 2).trans ((Region0.final (V3 m ρ) c).trans
    ((congrArg₂ Gcn.mm (w3_arg0 m ρ c) (w3_arg3 m ρ c)).trans (Cert.ReferenceIdeal.Stages.v32_eq (arg0 m c) (arg3 m c)).symm))
theorem w4_v5 : W4 m ρ c (Proc.devRef .tc main_v5) = Cert.ReferenceIdeal.Read.val_main_v5 (F := Ideal) (arg1 m c) := (W4_of_ne m ρ c main_v5 (by decide)).trans (w3_v5 m ρ c)
theorem w4_v6 : W4 m ρ c (Proc.devRef .tc main_v6) = Cert.ReferenceIdeal.Read.val_main_v6 (F := Ideal) (arg1 m c) := (W4_of_ne m ρ c main_v6 (by decide)).trans (w3_v6 m ρ c)
theorem w4_v31 : W4 m ρ c (Proc.devRef .tc main_v31) = Cert.ReferenceIdeal.Read.val_main_v31 (F := Ideal) (arg1 m c) (arg2 m c) := (W4_of_ne m ρ c main_v31 (by decide)).trans (w3_v31 m ρ c)
theorem w4_arg4 : W4 m ρ c (Proc.devRef .tc main_arg4) = (arg4 m c) := (W4_of_ne m ρ c main_arg4 (by decide)).trans (w3_arg4 m ρ c)
theorem w4_arg5 : W4 m ρ c (Proc.devRef .tc main_arg5) = (arg5 m c) := (W4_of_ne m ρ c main_arg5 (by decide)).trans (w3_arg5 m ρ c)
theorem w4_arg6 : W4 m ρ c (Proc.devRef .tc main_arg6) = (arg6 m c) := (W4_of_ne m ρ c main_arg6 (by decide)).trans (w3_arg6 m ρ c)

/-! ## At the second region's entry: the first aggregated array -/

theorem w5_v45 : W5 m ρ c (Proc.devRef .tc main_v45) = Cert.ReferenceIdeal.Read.val_main_v45 (F := Ideal) (arg0 m c) (arg1 m c) (arg2 m c) (arg3 m c) :=
  HostChain.mid_v45 (W4 m ρ c) (arg0 m c) (arg1 m c) (arg2 m c) (arg3 m c) (w4_v32 m ρ c) (w4_v5 m ρ c) (w4_v6 m ρ c) (w4_v31 m ρ c)
theorem w5_v5 : W5 m ρ c (Proc.devRef .tc main_v5) = Cert.ReferenceIdeal.Read.val_main_v5 (F := Ideal) (arg1 m c) := (HostChain.mid_v5 (W4 m ρ c)).trans (w4_v5 m ρ c)
theorem w5_v6 : W5 m ρ c (Proc.devRef .tc main_v6) = Cert.ReferenceIdeal.Read.val_main_v6 (F := Ideal) (arg1 m c) := (HostChain.mid_v6 (W4 m ρ c)).trans (w4_v6 m ρ c)
theorem w5_v31 : W5 m ρ c (Proc.devRef .tc main_v31) = Cert.ReferenceIdeal.Read.val_main_v31 (F := Ideal) (arg1 m c) (arg2 m c) := (HostChain.mid_v31 (W4 m ρ c)).trans (w4_v31 m ρ c)
theorem w5_arg4 : W5 m ρ c (Proc.devRef .tc main_arg4) = (arg4 m c) := (HostChain.mid_arg4 (W4 m ρ c)).trans (w4_arg4 m ρ c)
theorem w5_arg5 : W5 m ρ c (Proc.devRef .tc main_arg5) = (arg5 m c) := (HostChain.mid_arg5 (W4 m ρ c)).trans (w4_arg5 m ρ c)
theorem w5_arg6 : W5 m ρ c (Proc.devRef .tc main_arg6) = (arg6 m c) := (HostChain.mid_arg6 (W4 m ρ c)).trans (w4_arg6 m ρ c)

/-! ## After the second region: bias + positive part -/

theorem w6_v46 : W6 m ρ c (Proc.devRef .tc main_v46) = Cert.ReferenceIdeal.Read.val_main_v49 (F := Ideal) (arg0 m c) (arg1 m c) (arg2 m c) (arg3 m c) (arg4 m c) :=
  (W6_arr m ρ c 2).trans ((Region1.final (V5 m ρ) c).trans
    ((congrArg₂ Gcn.biasRelu (w5_v45 m ρ c) (w5_arg4 m ρ c)).trans (Cert.ReferenceIdeal.Stages.v49_eq (arg0 m c) (arg1 m c) (arg2 m c) (arg3 m c) (arg4 m c)).symm))
theorem w6_v5 : W6 m ρ c (Proc.devRef .tc main_v5) = Cert.ReferenceIdeal.Read.val_main_v5 (F := Ideal) (arg1 m c) := (W6_of_ne m ρ c main_v5 (by decide)).trans (w5_v5 m ρ c)
theorem w6_v6 : W6 m ρ c (Proc.devRef .tc main_v6) = Cert.ReferenceIdeal.Read.val_main_v6 (F := Ideal) (arg1 m c) := (W6_of_ne m ρ c main_v6 (by decide)).trans (w5_v6 m ρ c)
theorem w6_v31 : W6 m ρ c (Proc.devRef .tc main_v31) = Cert.ReferenceIdeal.Read.val_main_v31 (F := Ideal) (arg1 m c) (arg2 m c) := (W6_of_ne m ρ c main_v31 (by decide)).trans (w5_v31 m ρ c)
theorem w6_arg5 : W6 m ρ c (Proc.devRef .tc main_arg5) = (arg5 m c) := (W6_of_ne m ρ c main_arg5 (by decide)).trans (w5_arg5 m ρ c)
theorem w6_arg6 : W6 m ρ c (Proc.devRef .tc main_arg6) = (arg6 m c) := (W6_of_ne m ρ c main_arg6 (by decide)).trans (w5_arg6 m ρ c)

/-! ## After the third region: the second product -/

theorem w7_v47 : W7 m ρ c (Proc.devRef .tc main_v47) = Cert.ReferenceIdeal.Read.val_main_v78 (F := Ideal) (arg0 m c) (arg1 m c) (arg2 m c) (arg3 m c) (arg4 m c) (arg5 m c) :=
  (W7_arr m ρ c 2).trans ((Region2.final (V6 m ρ) c).trans
    ((congrArg₂ Gcn.mm (w6_v46 m ρ c) (w6_arg5 m ρ c)).trans (Cert.ReferenceIdeal.Stages.v78_eq (arg0 m c) (arg1 m c) (arg2 m c) (arg3 m c) (arg4 m c) (arg5 m c)).symm))
theorem w7_v5 : W7 m ρ c (Proc.devRef .tc main_v5) = Cert.ReferenceIdeal.Read.val_main_v5 (F := Ideal) (arg1 m c) := (W7_of_ne m ρ c main_v5 (by decide)).trans (w6_v5 m ρ c)
theorem w7_v6 : W7 m ρ c (Proc.devRef .tc main_v6) = Cert.ReferenceIdeal.Read.val_main_v6 (F := Ideal) (arg1 m c) := (W7_of_ne m ρ c main_v6 (by decide)).trans (w6_v6 m ρ c)
theorem w7_v31 : W7 m ρ c (Proc.devRef .tc main_v31) = Cert.ReferenceIdeal.Read.val_main_v31 (F := Ideal) (arg1 m c) (arg2 m c) := (W7_of_ne m ρ c main_v31 (by decide)).trans (w6_v31 m ρ c)
theorem w7_arg6 : W7 m ρ c (Proc.devRef .tc main_arg6) = (arg6 m c) := (W7_of_ne m ρ c main_arg6 (by decide)).trans (w6_arg6 m ρ c)

/-! ## At the last region's entry: the second aggregated array -/

theorem w8_v60 : W8 m ρ c (Proc.devRef .tc main_v60) = Cert.ReferenceIdeal.Read.val_main_v91 (F := Ideal) (arg0 m c) (arg1 m c) (arg2 m c) (arg3 m c) (arg4 m c) (arg5 m c) :=
  HostChain.last_v60 (W7 m ρ c) (arg0 m c) (arg1 m c) (arg2 m c) (arg3 m c) (arg4 m c) (arg5 m c) (w7_v47 m ρ c)
    ((w7_v5 m ρ c).trans (Cert.ReferenceIdeal.Stages.v51_eq (arg1 m c)).symm)
    ((w7_v6 m ρ c).trans (Cert.ReferenceIdeal.Stages.v52_eq (arg1 m c)).symm)
    ((w7_v31 m ρ c).trans (Cert.ReferenceIdeal.Stages.v77_eq (arg1 m c) (arg2 m c)).symm)
theorem w8_arg6 : W8 m ρ c (Proc.devRef .tc main_arg6) = arg6 m c := (HostChain.last_arg6 (W7 m ρ c)).trans (w7_arg6 m ρ c)

/-! ## After the last region: the result -/

/-- The program's result array ends at the reference's result term of the argument arrays as launched. -/
theorem w9_v61 : W9 m ρ c (Proc.devRef .tc main_v61)
    = Cert.ReferenceIdeal.Read.val_main_v105 (F := Ideal) (arg0 m c) (arg1 m c) (arg2 m c) (arg3 m c) (arg4 m c) (arg5 m c) (arg6 m c) :=
  (W9_arr m ρ c 2).trans ((Region3.final (V8 m ρ) c).trans
    ((congrArg₂ Gcn.biasSoftmax (w8_v60 m ρ c) (w8_arg6 m ρ c)).trans
      (Cert.ReferenceIdeal.Stages.v105_eq (arg0 m c) (arg1 m c) (arg2 m c) (arg3 m c) (arg4 m c) (arg5 m c) (arg6 m c)).symm))

end Cert.KernelIdeal.Chain

end
-- ==== Proof.lean ====
/-
  A two-layer graph convolution with a softmax head: the program with four dense regions against the plain
  reference, equal as extended reals.

  Both programs compute, from node features x, an edge list with weights, and two weight/bias pairs,
    softmax_rows (A · relu (A · (x W₁) + b₁) W₂ + b₂),
  where A is the normalised aggregation along the edges with self-loops (gather the source rows, weigh them by
  d^{-1/2}[src] · w · d^{-1/2}[dst], scatter-add into the destination rows; d the weighted in-degree). The
  aggregation is the same host operations of the same operands in both programs and is never opened: it is
  carried as one function. The program differs from the reference in four places, each a dense computation done
  in ten row blocks of 5000 rows on the TensorCore where the reference does it whole on the host:
  * the two matrix products (operands narrowed to bf16, which is the identity on extended reals; the matrix
    unit's accumulator starts at zero): element (r, c) of either side is the sum over k of left (r, k) · right
    (k, c), and the sum reads one row of the left operand, so the row blocks of the product are the products of
    the row blocks;
  * bias + positive part, element by element;
  * bias + softmax: each entry depends on its own row only; the reference takes the row maximum against −∞ once
    more, which changes nothing.
  The program computes the lists and the normalisation once, the reference twice by the same operations.
  No law used needs finiteness (sums are only re-indexed, never distributed over), so the precondition is not
  opened. The idealized program is the program's own text read over the extended reals (nothing of it was
  rewritten), so that claim is trivial; the three frames are the generated frame certificates and the reference's
  generated run.
-/
import proofs.«179261_j3504693313899_2_alg».proof.Defs
import proofs.«179261_j3504693313899_2_alg».proof.Proof.Gen.Kernel
import proofs.«179261_j3504693313899_2_alg».proof.Proof.Gen.Kernel.Skeleton
import proofs.«179261_j3504693313899_2_alg».proof.Proof.Gen.Kernel.Launch
import proofs.«179261_j3504693313899_2_alg».proof.Proof.Gen.Kernel.Points
import proofs.«179261_j3504693313899_2_alg».proof.Proof.Gen.Kernel.Frame
import proofs.«179261_j3504693313899_2_alg».proof.Proof.Gen.KernelIdeal
import proofs.«179261_j3504693313899_2_alg».proof.Proof.Gen.KernelIdeal.Skeleton
import proofs.«179261_j3504693313899_2_alg».proof.Proof.Gen.KernelIdeal.Launch
import proofs.«179261_j3504693313899_2_alg».proof.Proof.Gen.KernelIdeal.Points
import proofs.«179261_j3504693313899_2_alg».proof.Proof.Gen.KernelIdeal.Frame
import proofs.«179261_j3504693313899_2_alg».proof.Proof.Gen.ReferenceIdeal
import proofs.«179261_j3504693313899_2_alg».proof.Proof.Gen.ReferenceIdeal.Run
import proofs.«179261_j3504693313899_2_alg».proof.Proof.Gen.ReferenceIdeal.Read
import proofs.«179261_j3504693313899_2_alg».proof.Proof.Gen.Pre_finite_inputs
import proofs.«179261_j3504693313899_2_alg».proof.Proof.RunValue
import proofs.«179261_j3504693313899_2_alg».proof.Proof.Chain
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reference's result term of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v105 (F := Ideal) (Cert.KernelIdeal.Chain.arg0 m c) (Cert.KernelIdeal.Chain.arg1 m c) (Cert.KernelIdeal.Chain.arg2 m c) (Cert.KernelIdeal.Chain.arg3 m c) (Cert.KernelIdeal.Chain.arg4 m c) (Cert.KernelIdeal.Chain.arg5 m c) (Cert.KernelIdeal.Chain.arg6 m c), ?_, ?_⟩
  · exact (θ_run Cert.KernelIdeal.defs _ _).mono
      (fun r h c => ⟨(h c).1.trans (Cert.KernelIdeal.Chain.w9_v61 m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v105_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
